-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 17
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .bf16⟩
  | .hbm, ⟨5, _⟩ => ⟨S4096x4096, .f32⟩
  | .hbm, ⟨6, _⟩ => ⟨S4096x4096, .bf16⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S1x4096, .f32⟩
  | .hbm, ⟨15, _⟩ => ⟨S8192x4096, .f32⟩
  | .hbm, ⟨16, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S1x4096 : S4096x1.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S_, .f32⟩
  | .hbm, ⟨3, _⟩ => ⟨S4x2048x4096, .f32⟩
  | .hbm, ⟨4, _⟩ => ⟨S4x2048x4096, .i1⟩
  | .hbm, ⟨5, _⟩ => ⟨S_, .f32⟩
  | .hbm, ⟨6, _⟩ => ⟨S4x2048x4096, .f32⟩
  | .hbm, ⟨7, _⟩ => ⟨S4x2048x4096, .i1⟩
  | .hbm, ⟨8, _⟩ => ⟨S_, .f32⟩
  | .hbm, ⟨9, _⟩ => ⟨S4x2048x4096, .f32⟩
  | .hbm, ⟨10, _⟩ => ⟨S4x2048x4096, .i1⟩
  | .hbm, ⟨11, _⟩ => ⟨S4x2048x4096, .f32⟩
  | .hbm, ⟨12, _⟩ => ⟨S_, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S_, .f32⟩
  | .hbm, ⟨17, _⟩ => ⟨S_, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S_, .f32⟩
  | .hbm, ⟨28, _⟩ => ⟨S_, .f32⟩
  | .hbm, ⟨29, _⟩ => ⟨S4x2048x4096, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_call2_v0 : Ref sig .tc := ⟨.hbm, 28, rfl⟩
abbrev main_call2_v1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_cst_9 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.RefImports.lean ====
/-
  The reference program's run and its stages read at an index (both generated) are brought in here once,
  so that the modules about the reference side share one import.
-/
import proofs.«143307_j61529701482741_2_alg».proof.Proof.Gen.ReferenceIdeal.Read
-- ==== Proof.LibIsReal.lean ====
/-
  Extended reals that are real numbers, and a real weight moved across absolute differences.

  `IsReal x` says the extended real `x` is (the image of) a real number. Real numbers are closed under sums,
  differences, the absolute value taken as the larger of `x` and `-x` (`absE`), and finite sums (`isReal_sum`), so a
  quantity built from real pieces by these operations stays away from both infinities, where the extended reals do
  not distribute. For real `A B C D w` (`weighted_abs`):
    |A w - B w| + |C w - D w| = |w| (|A - B| + |C - D|).
  Nothing here mentions a program: the file depends on Mathlib's extended reals only.
-/
import Mathlib.Data.EReal.Basic
import Mathlib.Data.EReal.Operations
import Mathlib.Algebra.BigOperators.Group.Finset.Basic
import Mathlib.Algebra.Order.AbsoluteValue.Basic
import Mathlib.Tactic.Ring

noncomputable section

namespace Cert.EdgeLoss

/-- The absolute value as both programs take it: the larger of `x` and `-x`. -/
def absE (x : EReal) : EReal := max x (-x)

/-- An extended real that is a real number. -/
def IsReal (x : EReal) : Prop := ∃ r : ℝ, x = (r : EReal)

theorem isReal_zero : IsReal 0 := ⟨0, EReal.coe_zero.symm⟩

/-- The inclusion of the reals is monotone, so it commutes with the larger of two numbers. -/
theorem coe_max (a b : ℝ) : ((max a b : ℝ) : EReal) = max (a : EReal) (b : EReal) :=
  EReal.coe_strictMono.monotone.map_max

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.absE {x : EReal} (hx : IsReal x) : IsReal (absE x) := by
  obtain ⟨a, rfl⟩ := hx
  exact ⟨max a (-a), by rw [Cert.EdgeLoss.absE, coe_max, EReal.coe_neg]⟩

theorem isReal_sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-! ## A finite weight moves across the differences -/

/-- For real numbers, |A w - B w| + |C w - D w| = |w| (|A - B| + |C - D|): the reference weights each structure
    before it subtracts, the kernel weights the sum of the two absolute differences. -/
theorem weighted_abs {A B C D w : EReal} (hA : IsReal A) (hB : IsReal B) (hC : IsReal C) (hD : IsReal D) (hw : IsReal w) :
    absE (A * w - B * w) + absE (C * w - D * w) = absE w * (absE (A - B) + absE (C - D)) := by
  obtain ⟨a, rfl⟩ := hA; obtain ⟨b, rfl⟩ := hB; obtain ⟨c, rfl⟩ := hC; obtain ⟨d, rfl⟩ := hD; obtain ⟨v, rfl⟩ := hw
  simp only [absE, ← EReal.coe_mul, ← EReal.coe_sub, ← EReal.coe_neg, ← coe_max, ← EReal.coe_add]
  refine congrArg _ ?_
  simp only [← abs_eq_max_neg]
  rw [← sub_mul, ← sub_mul, abs_mul, abs_mul]
  ring

end Cert.EdgeLoss

end
-- ==== Proof.LibRealScale.lean ====
/-
  A real factor moved across a finite sum of products, on the extended reals.

  The extended reals are not a ring: a product does not distribute over a sum at an infinity (the sum may be
  `⊤ + ⊥`). For extended reals that are real numbers (`IsReal`) every ring identity of the reals holds, because
  the inclusion of the reals commutes with products and with finite sums (`coe_finset_sum`). This file proves that
  real numbers are closed under products (`IsReal.mul`), that the image of a real number is real (`isReal_coe`),
  and the identity used for a scaled inner product (`scale_sum`):
    ∑ i, (a i * c) * b i = (∑ i, a i * b i) * c    for real a i, b i, c.
  Nothing here mentions a program: the file depends on Mathlib's extended reals only.
-/
import Mathlib
import proofs.«143307_j61529701482741_2_alg».proof.Proof.LibIsReal

noncomputable section

open scoped BigOperators

namespace Cert.EdgeLoss

/-- The product of two real numbers is a real number. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

end Cert.EdgeLoss

namespace Cert.RealScale

open Cert.EdgeLoss

/-- The image of a real number is real. -/
theorem isReal_coe (r : ℝ) : IsReal (r : EReal) := ⟨r, rfl⟩

/-- The inclusion of the reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A real factor moves across a finite sum of products of real numbers. On the extended reals this needs the
    terms real: at an infinity the product does not distribute. -/
theorem scale_sum {ι : Type} [Fintype ι] (a b : ι → EReal) (c : EReal)
    (ha : ∀ i, IsReal (a i)) (hb : ∀ i, IsReal (b i)) (hc : IsReal c) :
    ∑ i, (a i * c) * b i = (∑ i, a i * b i) * c := by
  choose a' ha' using ha
  choose b' hb' using hb
  obtain ⟨c', rfl⟩ := hc
  have h1 : ∀ i, (a i * (c' : EReal)) * b i = ((a' i * c' * b' i : ℝ) : EReal) := fun i => by
    rw [ha' i, hb' i, EReal.coe_mul, EReal.coe_mul]
  have h2 : ∀ i, a i * b i = ((a' i * b' i : ℝ) : EReal) := fun i => by
    rw [ha' i, hb' i, EReal.coe_mul]
  rw [Finset.sum_congr rfl fun i _ => h1 i, Finset.sum_congr rfl fun i _ => h2 i,
    ← coe_finset_sum, ← coe_finset_sum, ← EReal.coe_mul, Finset.sum_mul]
  refine congrArg _ (Finset.sum_congr rfl fun i _ => ?_)
  ring

end Cert.RealScale

end
-- ==== Proof.Spec.lean ====
/-
  The function both programs compute, on the extended reals.

  For activations `X : [4, 2048, 4096]` and weights `W : [4096, 4096]`,

      G X W (b, s, o) = (∑ i, sign X(b,s,i) · sign W(o,i)) · rowScale W o,
      rowScale W o    = (0 + ∑ i, |W(o,i)|) / 4096,

  a sign-binarised inner product along the input features, rescaled by the mean absolute value of the weight row.
  The absolute value is taken as the larger of a number and its negative, the quotient is the extended reals'
  quotient by the real 4096, and `sign` is the order's sign (-1, 0 or 1).

  The kernel computes the inner product on a [8192, 4096] matrix of activations (the leading two axes merged),
  block by block along the features, and multiplies once by the row of scales; `regionOut` is that matrix form
  over arbitrary factor arrays.
-/
import Idealize.ShloMosaic.PureOps.Ideal
import Idealize.ShloMosaic.Lib.ValueIdx
import proofs.«143307_j61529701482741_2_alg».proof.Proof.LibIsReal
import proofs.«143307_j61529701482741_2_alg».proof.Proof.LibRealScale

noncomputable section

namespace Cert.SignLinear

open Idealize.ShloMosaic Idealize.ShloMosaic.ValueIdx

/-- The activations' shape [4, 2048, 4096], the weights' [4096, 4096], the merged activations' [8192, 4096] and the
    row of scales' [1, 4096]. -/
abbrev ActShape : Shape := ⟨3, ![4, 2048, 4096]⟩
abbrev WtShape : Shape := ⟨2, ![4096, 4096]⟩
abbrev MatShape : Shape := ⟨2, ![8192, 4096]⟩
abbrev RowShape : Shape := ⟨2, ![1, 4096]⟩

/-- The mean absolute value of weight row `o`: the sum of the row's absolute values from zero, over 4096. -/
def rowScale (W : WtShape.Idx → EReal) (o : Fin 4096) : EReal :=
  Ideal.div (Ideal.ofBits .f32 0x00000000#32 + ∑ i : Fin 4096, max (W (ix2 o i)) (-(W (ix2 o i))))
    (Ideal.ofBits .f32 0x45800000#32)

/-- The inner product of the signs of activation row `(b, s)` and weight row `o`. -/
def signDot (X : ActShape.Idx → EReal) (W : WtShape.Idx → EReal) (b : Fin 4) (s : Fin 2048) (o : Fin 4096) : EReal :=
  ∑ i : Fin 4096, Ideal.sign (X (ix3 b s i)) * Ideal.sign (W (ix2 o i))

/-- The result both programs end with: the sign inner product rescaled by the weight row's mean absolute value. -/
def G (X : ActShape.Idx → EReal) (W : WtShape.Idx → EReal) : ActShape.Idx → EReal :=
  fun j => signDot X W (j 0) (j 1) (j 2) * rowScale W (j 2)

theorem G_apply (X : ActShape.Idx → EReal) (W : WtShape.Idx → EReal) (b : Fin 4) (s : Fin 2048) (o : Fin 4096) :
    G X W (ix3 b s o) = signDot X W b s o * rowScale W o := rfl

/-- The matrix form: row `r` of `A` against row `o` of `B`, times entry `o` of the row `Sc`. -/
def regionOut (A : MatShape.Idx → EReal) (B : WtShape.Idx → EReal) (Sc : RowShape.Idx → EReal) : MatShape.Idx → EReal :=
  fun j => (∑ i : Fin 4096, A (ix2 (j 0) i) * B (ix2 (j 1) i)) * Sc (ix2 (0 : Fin 1) (j 1))

theorem regionOut_apply (A : MatShape.Idx → EReal) (B : WtShape.Idx → EReal) (Sc : RowShape.Idx → EReal)
    (r : Fin 8192) (o : Fin 4096) :
    regionOut A B Sc (ix2 r o) = (∑ i : Fin 4096, A (ix2 r i) * B (ix2 o i)) * Sc (ix2 (0 : Fin 1) o) := rfl

/-- Row `r = 2048 b + s` of the merged activations. -/
def mergedRow (b : Fin 4) (s : Fin 2048) : Fin 8192 := ⟨2048 * b.val + s.val, by omega⟩

/-- The sign is a real number at every extended real. -/
theorem isReal_sign (x : EReal) : Cert.EdgeLoss.IsReal (Ideal.sign x) := by
  induction x using EReal.rec with
  | bot => exact ⟨-1, by rw [Ideal.sign_bot]; norm_num⟩
  | coe r => exact ⟨_, Ideal.sign_coe r⟩
  | top => exact ⟨1, by rw [Ideal.sign_top]; norm_num⟩

end Cert.SignLinear

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.PointValue.lean ====
/-
  What the body leaves at one grid point, entry by entry at the ideal values: the accumulator after a first, a middle and the last
  feature block, and the output block after the last.
  Each is the value the case stored last, read at an index: the accumulation step adds to what was held the
  matrix product of the two operand blocks (a sum over the block's 512 features), the zeroing step stores zeros,
  and the scaling step multiplies each column by its scale.
-/
import proofs.«143307_j61529701482741_2_alg».proof.Proof.Gen.KernelIdeal.Frame
import proofs.«143307_j61529701482741_2_alg».proof.Proof.LibContract
import Idealize.ShloMosaic.Lib.ValueIdx
import Idealize.ShloMosaic.Lib.ValueLayout
import Idealize.ShloMosaic.Lib.Pipeline.Value
import Idealize.ShloMosaic.PureOps.Ideal.Laws

noncomputable section

namespace Cert.SignLinear.Point

open Idealize.ShloMosaic Idealize.ShloMosaic.TcCoe Idealize.SL.Sem Idealize.ShloMosaic.ValueIdx
open Cert.KernelIdeal Cert.KernelIdeal.Gen

/-- The product of block row p of the first operand and block row q of the second, over the block's 512 features. -/
def blockDot (x0 : Vec Ideal S1024x512 .bf16) (x1 : Vec Ideal S2048x512 .bf16) (p : Fin 1024) (q : Fin 2048) : EReal :=
  ∑ l : Fin 512, x0 (ix2 p l) * x1 (ix2 q l)

/-! ## What each case stores, as functions of the blocks it reads

The accumulator and the output block are rewritten whole (one rectangle at offsets zero), and every block is read
whole, so what a case leaves is the value it stored last; a value stored and read back inside the case is itself. -/

section Pieces

variable {F : FTy → Type} [FloatOps F]

/-- Offsets (0, 0): every rectangle the body reads or writes starts at the block's corner. -/
theorem offsets_zero : (![0, 0] : Fin 2 → Nat) = fun _ => 0 := funext fun a => by fin_cases a <;> rfl

/-- At a first feature block the body stores two pieces into the accumulator: the zero splat, then the accumulation step of that zero splat (read back) and the two operand blocks. -/
theorem piece_A (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec F S1024x512 .bf16) (x1 : Vec F S2048x512 .bf16) (x2 : Vec F S1x2048 .f32) :
    sout0_A_0 c i arg3 harg3 arg4 harg4 arg5 harg5 arg6 harg6 arg7 harg7 hc0 hc1 x0 x1 x2 = k0_pay2 k0_pay1 x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x2048) offsets_zero, View.readCov_unit_zero (S := S1024x2048) _ offsets_zero]
  simp only [View.readAt_eq_ld, harg3.read_unread, harg4.read_unread,
    View.ld_unit_zero (S := S1024x512) offsets_zero, View.ld_unit_zero (S := S2048x512) offsets_zero]

/-- At a middle feature block the body stores one piece into the accumulator: the accumulation step of what it held and the two operand blocks. -/
theorem piece_B (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec F S1024x512 .bf16) (x1 : Vec F S2048x512 .bf16) (x2 : Vec F S1x2048 .f32) (xs0 : Vec F S1024x2048 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero offsets_zero]
  simp only [View.readAt_eq_ld, harg3.read_unread, harg4.read_unread, harg7.read_unread,
    View.ld_unit_zero (S := S1024x2048) offsets_zero, View.ld_unit_zero (S := S1024x512) offsets_zero, View.ld_unit_zero (S := S2048x512) offsets_zero]

/-- At the last feature block the body stores one piece into the accumulator, as at a middle block, -/
theorem piece_C (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .bf16) (x1 : Vec F S2048x512 .bf16) (x2 : Vec F S1x2048 .f32) (xs0 : Vec F S1024x2048 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x2048) offsets_zero]
  simp only [View.readAt_eq_ld, harg3.read_unread, harg4.read_unread, harg7.read_unread,
    View.ld_unit_zero (S := S1024x2048) offsets_zero, View.ld_unit_zero (S := S1024x512) offsets_zero, View.ld_unit_zero (S := S2048x512) offsets_zero]

/-- and one piece into the output block: the scaling step of the finished accumulator (read back) and the block of scales. -/
theorem piece_C_out (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec F S1024x512 .bf16) (x1 : Vec F S2048x512 .bf16) (x2 : Vec F S1x2048 .f32) (xs0 : Vec F S1024x2048 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x2048) offsets_zero, View.readCov_unit_zero (S := S1024x2048) _ offsets_zero]
  simp only [View.readAt_eq_ld, harg3.read_unread, harg4.read_unread, harg5.read_unread, harg7.read_unread,
    View.ld_unit_zero (S := S1024x2048) offsets_zero, View.ld_unit_zero (S := S1024x512) offsets_zero, View.ld_unit_zero (S := S2048x512) offsets_zero,
    View.ld_unit_zero (S := S1x2048) offsets_zero]

end Pieces

/-! ## The three stored values at an entry, over the extended reals -/

/-- The first operand's index of the matrix product at output (p, q) and contraction position l is (p, l). -/
theorem lhsIdx_eq (p : Fin 1024) (q : Fin 2048) (l : Fin 512) :
    dot_S1024x512_S2048x512_S1024x2048_1_1_0_0_n_n.lhsIdx (ix2 p q)
      ((contrEquiv1 dot_S1024x512_S2048x512_S1024x2048_1_1_0_0_n_n 512 rfl rfl).symm l) = ix2 p l :=
  funext fun a => Fin.ext (by
    match a with
    | ⟨0, _⟩ =>
      show (dot_S1024x512_S2048x512_S1024x2048_1_1_0_0_n_n.lhsIdx (ix2 p q) _ 0).val = p.val
      unfold DotDims.lhsIdx
      rw [dif_neg (show ¬(0 : Fin S1024x512.rank) ∈ dot_S1024x512_S2048x512_S1024x2048_1_1_0_0_n_n.lhsBatch by decide),
        dif_pos (show (0 : Fin S1024x512.rank) ∈ dot_S1024x512_S2048x512_S1024x2048_1_1_0_0_n_n.lhsNonContracting by decide)]
      rfl
    | ⟨1, _⟩ =>
      exact (dot_S1024x512_S2048x512_S1024x2048_1_1_0_0_n_n.lhsIdx_val_of_single rfl (ix2 p q) _).trans
        (contrEquiv1_symm_val dot_S1024x512_S2048x512_S1024x2048_1_1_0_0_n_n 512 rfl rfl l))

/-- The second operand's index there is (q, l): both operands are contracted along their second axis. -/
theorem rhsIdx_eq (p : Fin 1024) (q : Fin 2048) (l : Fin 512) :
    dot_S1024x512_S2048x512_S1024x2048_1_1_0_0_n_n.rhsIdx (ix2 p q)
      ((contrEquiv1 dot_S1024x512_S2048x512_S1024x2048_1_1_0_0_n_n 512 rfl rfl).symm l) = ix2 q l :=
  funext fun a => Fin.ext (by
    match a with
    | ⟨0, _⟩ =>
      show (dot_S1024x512_S2048x512_S1024x2048_1_1_0_0_n_n.rhsIdx (ix2 p q) _ 0).val = q.val
      unfold DotDims.rhsIdx
      rw [dif_neg (show ¬(0 : Fin S2048x512.rank) ∈ dot_S1024x512_S2048x512_S1024x2048_1_1_0_0_n_n.rhsBatch by decide),
        dif_pos (show (0 : Fin S2048x512.rank) ∈ dot_S1024x512_S2048x512_S1024x2048_1_1_0_0_n_n.rhsNonContracting by decide)]
      rfl
    | ⟨1, _⟩ =>
      exact (dot_S1024x512_S2048x512_S1024x2048_1_1_0_0_n_n.rhsIdx_val_of_single rfl (ix2 p q) _).trans
        (contrEquiv1_symm_val dot_S1024x512_S2048x512_S1024x2048_1_1_0_0_n_n 512 rfl rfl l))

/-- The accumulation step at an entry: what was held plus the block's product. -/
theorem pay2_apply (v3 : Vec Ideal S1024x2048 .f32) (v4 : Vec Ideal S1024x512 .bf16) (v6 : Vec Ideal S2048x512 .bf16)
    (p : Fin 1024) (q : Fin 2048) :
    k0_pay2 (F := Ideal) v3 v4 v6 (ix2 p q) = v3 (ix2 p q) + blockDot v4 v6 p q := by
  unfold k0_pay2
  refine (congrFun (shapeCast_self _ _) (ix2 p q)).trans ?_
  refine (addf_apply _ _ _).trans ?_
  refine congrArg (v3 (ix2 p q) + ·) ?_
  refine ContractSingle.matmul_zero_single dot_S1024x512_S2048x512_S1024x2048_1_1_0_0_n_n none 512 rfl rfl _ _ (ix2 p q)
    (fun l => v4 (ix2 p l)) (fun l => v6 (ix2 q l)) (fun l => ?_) (fun l => ?_)
  · exact (congrFun (shapeCast_self v4 _) _).trans (congrArg v4 (lhsIdx_eq p q l))
  · exact (congrFun (shapeCast_self v6 _) _).trans (congrArg v6 (rhsIdx_eq p q l))

/-- The zero splat reads zero everywhere. -/
theorem pay1_apply (j : S1024x2048.Idx) : k0_pay1 (F := Ideal) j = 0 := by
  unfold k0_pay1
  refine (congrFun (shapeCast_self _ _) j).trans ?_
  exact Ideal.ofBits_zero_f32

/-- The scaling step at an entry: the accumulator's entry times the scale of its column. -/
theorem pay3_apply (v16 : Vec Ideal S1024x2048 .f32) (v17 : Vec Ideal S1x2048 .f32) (p : Fin 1024) (q : Fin 2048) :
    k0_pay3 (F := Ideal) v16 v17 (ix2 p q) = v16 (ix2 p q) * v17 (ix2 (0 : Fin 1) q) := by
  unfold k0_pay3
  refine (mulf_apply _ _ _).trans ?_
  refine congrArg (v16 (ix2 p q) * ·) ?_
  refine (broadcastTo_1b_ab_apply _ _ p q).trans ?_
  exact congrFun (shapeCast_self v17 _) _

/-! ## The four statements -/

/-- At a first feature block the accumulator ends at the block's product alone (it was zeroed first). -/
theorem scratch_first (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i)
    (x0 : Vec Ideal S1024x512 .bf16) (x1 : Vec Ideal S2048x512 .bf16) (x2 : Vec Ideal S1x2048 .f32) (p : Fin 1024) (q : Fin 2048) :
    sout0_A_0 (F := Ideal) c i arg3 harg3 arg4 harg4 arg5 harg5 arg6 harg6 arg7 harg7 hc0 hc1 x0 x1 x2 (ix2 p q) = blockDot x0 x1 p q := by
  exact (congrFun (piece_A (F := Ideal) c i arg3 harg3 arg4 harg4 arg5 harg5 arg6 harg6 arg7 harg7 hc0 hc1 x0 x1 x2) (ix2 p q)).trans
    ((pay2_apply (k0_pay1 (F := Ideal)) x0 x1 p q).trans
      ((congrArg (· + blockDot x0 x1 p q) (pay1_apply (ix2 p q))).trans (zero_add _)))

/-- At a middle feature block the accumulator ends at what it held plus the block's product. -/
theorem scratch_middle (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i)
    (x0 : Vec Ideal S1024x512 .bf16) (x1 : Vec Ideal S2048x512 .bf16) (x2 : Vec Ideal S1x2048 .f32) (xs0 : Vec Ideal S1024x2048 .f32) (p : Fin 1024) (q : Fin 2048) :
    sout0_B_0 (F := Ideal) c i arg3 harg3 arg4 harg4 arg5 harg5 arg6 harg6 arg7 harg7 hc0 hc1 x0 x1 x2 xs0 (ix2 p q) = xs0 (ix2 p q) + blockDot x0 x1 p q := by
  exact (congrFun (piece_B (F := Ideal) c i arg3 harg3 arg4 harg4 arg5 harg5 arg6 harg6 arg7 harg7 hc0 hc1 x0 x1 x2 xs0) (ix2 p q)).trans (pay2_apply xs0 x0 x1 p q)

/-- At the last feature block the accumulator ends likewise, -/
theorem scratch_last (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec Ideal S1024x512 .bf16) (x1 : Vec Ideal S2048x512 .bf16) (x2 : Vec Ideal S1x2048 .f32) (xs0 : Vec Ideal S1024x2048 .f32) (p : Fin 1024) (q : Fin 2048) :
    sout0_C_0 (F := Ideal) c i arg3 harg3 arg4 harg4 arg5 harg5 arg6 harg6 arg7 harg7 hc0 hc1 x0 x1 x2 xs0 (ix2 p q) = xs0 (ix2 p q) + blockDot x0 x1 p q := by
  exact (congrFun (piece_C (F := Ideal) c i arg3 harg3 arg4 harg4 arg5 harg5 arg6 harg6 arg7 harg7 hc0 hc1 x0 x1 x2 xs0) (ix2 p q)).trans (pay2_apply xs0 x0 x1 p q)

/-- and the output block is the finished accumulator times the row of scales' entry of its column. -/
theorem out_last (c : Dev nD) (i : grid0.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i)
    (x0 : Vec Ideal S1024x512 .bf16) (x1 : Vec Ideal S2048x512 .bf16) (x2 : Vec Ideal S1x2048 .f32) (xs0 : Vec Ideal S1024x2048 .f32) (p : Fin 1024) (q : Fin 2048) :
    out0_C_3 (F := Ideal) c i arg3 harg3 arg4 harg4 arg5 harg5 arg6 harg6 arg7 harg7 hc0 hc1 x0 x1 x2 xs0 (ix2 p q) = (xs0 (ix2 p q) + blockDot x0 x1 p q) * x2 (ix2 (0 : Fin 1) q) := by
  exact (congrFun (piece_C_out (F := Ideal) c i arg3 harg3 arg4 harg4 arg5 harg5 arg6 harg6 arg7 harg7 hc0 hc1 x0 x1 x2 xs0) (ix2 p q)).trans
    ((pay3_apply (k0_pay2 xs0 x0 x1) x2 p q).trans
      (congrArg (· * x2 (ix2 (0 : Fin 1) q)) (pay2_apply xs0 x0 x1 p q)))

end Cert.SignLinear.Point

end
-- ==== Proof.LibBlockSum.lean ====
/-
  A sum over `a * b` consecutive indices, taken block by block.

  The indices below `a * b` are the numbers `b * k + l` with `k < a` and `l < b`, each once, so in any
  commutative monoid the sum of `f` over them is the sum over the blocks `k` of the sums over the offsets `l`.
  A running total over the first `n` blocks (`blockPartial`) starts at the first block's sum, gains one block's
  sum per step, and is the whole sum after `a` blocks.
  Nothing here mentions a program: the file depends on Mathlib only.
-/
import Mathlib

open scoped BigOperators

namespace Cert.BlockSum

variable {M : Type*} [AddCommMonoid M]

/-- The index `b * k + l` below `a * b`. -/
def blockIdx (a b : ℕ) (k : Fin a) (l : Fin b) : Fin (a * b) :=
  ⟨b * k.val + l.val, by
    have hk := k.isLt; have hl := l.isLt
    calc b * k.val + l.val < b * k.val + b := by omega
      _ = b * (k.val + 1) := by ring
      _ ≤ b * a := Nat.mul_le_mul_left b hk
      _ = a * b := Nat.mul_comm b a⟩

/-- A sum over `a * b` indices is the sum over `a` blocks of the sums over the `b` offsets in a block. -/
theorem sum_blocks (a b : ℕ) (f : Fin (a * b) → M) :
    ∑ i : Fin (a * b), f i = ∑ k : Fin a, ∑ l : Fin b, f (blockIdx a b k l) := by
  rw [← Equiv.sum_comp finProdFinEquiv f, Fintype.sum_prod_type]
  refine Finset.sum_congr rfl fun k _ => Finset.sum_congr rfl fun l _ => congrArg f (Fin.ext ?_)
  simp [blockIdx, finProdFinEquiv, Nat.add_comm]

/-- The total of the first `n` blocks (blocks past the last contribute nothing). -/
def blockPartial (a : ℕ) (g : Fin a → M) (n : ℕ) : M :=
  ∑ k : Fin a, if k.val < n then g k else 0

theorem blockPartial_zero (a : ℕ) (g : Fin a → M) : blockPartial a g 0 = 0 := by
  simp [blockPartial]

/-- One more block adds that block's sum. -/
theorem blockPartial_succ (a : ℕ) (g : Fin a → M) (n : ℕ) (hn : n < a) :
    blockPartial a g (n + 1) = blockPartial a g n + g ⟨n, hn⟩ := by
  unfold blockPartial
  have h : ∀ k : Fin a, (if k.val < n + 1 then g k else 0) = (if k.val < n then g k else 0) + (if k = ⟨n, hn⟩ then g k else 0) := by
    intro k
    by_cases h1 : k.val < n
    · have h2 : k ≠ ⟨n, hn⟩ := fun h => by rw [h] at h1; exact absurd h1 (lt_irrefl _)
      rw [if_pos (by omega), if_pos h1, if_neg h2, add_zero]
    · by_cases h3 : k.val = n
      · have h2 : k = ⟨n, hn⟩ := Fin.ext h3
        rw [if_pos (by omega), if_neg h1, if_pos h2, zero_add]
      · have h2 : k ≠ ⟨n, hn⟩ := fun h => h3 (by rw [h])
        rw [if_neg (by omega), if_neg h1, if_neg h2, add_zero]
  rw [Finset.sum_congr rfl fun k _ => h k, Finset.sum_add_distrib]
  congr 1
  rw [Finset.sum_ite_eq' Finset.univ (⟨n, hn⟩ : Fin a) g, if_pos (Finset.mem_univ _)]

/-- After all `a` blocks the running total is the whole sum. -/
theorem blockPartial_all (a : ℕ) (g : Fin a → M) : blockPartial a g a = ∑ k : Fin a, g k := by
  unfold blockPartial
  exact Finset.sum_congr rfl fun k _ => if_pos k.isLt

end Cert.BlockSum
-- ==== Proof.RegionValueBlocks.lean ====
/-
  Where each grid point's blocks sit in the arrays.

  The grid has 8 × 2 × 8 points; the point at position t (the last axis running fastest) has row block t / 16,
  column block (t / 8) % 2 and feature block t % 8.  At that point the first operand's block is rows
  1024 (t / 16) … and features 512 (t % 8) … of the [8192, 4096] matrix, the second operand's block is rows
  2048 ((t / 8) % 2) … and the same features of the [4096, 4096] matrix, the block of scales is columns
  2048 ((t / 8) % 2) … of the row of scales, and the output block is rows 1024 (t / 16) …, columns
  2048 ((t / 8) % 2) … of the [8192, 4096] result.  An element of a block sits in its array at
  block index × block size + its own coordinate, on each axis.
-/
import proofs.«143307_j61529701482741_2_alg».proof.Proof.Gen.KernelIdeal.Frame
import proofs.«143307_j61529701482741_2_alg».proof.Proof.Spec
import Idealize.ShloMosaic.Lib.Pipeline.Value

noncomputable section

namespace Cert.SignLinear.Region

open Idealize.ShloMosaic Idealize.ShloMosaic.TcCoe Idealize.SL.Sem Idealize.ShloMosaic.ValueIdx
open Cert.KernelIdeal Cert.KernelIdeal.Gen Cert.SignLinear

/-- The block indices of the four windows at position t, as quotients and remainders of t. -/
theorem idx_facts : ∀ t : Fin cfg0.N,
    win0_0.index t (0 : Fin 2) = t.val / 16 ∧ win0_0.index t (1 : Fin 2) = t.val % 8
  ∧ win0_1.index t (0 : Fin 2) = (t.val / 8) % 2 ∧ win0_1.index t (1 : Fin 2) = t.val % 8
  ∧ win0_2.index t (0 : Fin 2) = 0 ∧ win0_2.index t (1 : Fin 2) = (t.val / 8) % 2
  ∧ win0_3.index t (0 : Fin 2) = t.val / 16 ∧ win0_3.index t (1 : Fin 2) = (t.val / 8) % 2 :=
  (by decide +kernel : ∀ t : Fin grid0.N, _)

/-- Row p of row block a of the [8192, 4096] matrices (reduced modulo the extent, so that it is defined for every a). -/
def rowOf (a : ℕ) (p : Fin 1024) : Fin 8192 := ⟨(1024 * a + p.val) % 8192, Nat.mod_lt _ (by norm_num)⟩

/-- Row q of column block b of the second operand, which is column q of column block b of the result. -/
def colOf (b : ℕ) (q : Fin 2048) : Fin 4096 := ⟨(2048 * b + q.val) % 4096, Nat.mod_lt _ (by norm_num)⟩

/-- Feature l of feature block k. -/
def featIdx (k : Fin 8) (l : Fin 512) : Fin 4096 := ⟨512 * k.val + l.val, by omega⟩

theorem rowOf_val (a : ℕ) (ha : a < 8) (p : Fin 1024) : (rowOf a p).val = 1024 * a + p.val := by
  show (1024 * a + p.val) % 8192 = _
  have := p.isLt
  omega

theorem colOf_val (b : ℕ) (hb : b < 2) (q : Fin 2048) : (colOf b q).val = 2048 * b + q.val := by
  show (2048 * b + q.val) % 4096 = _
  have := q.isLt
  omega

variable (m : (ℓ : Loc nD τ sig) → Buf (Elt Ideal) ℓ)

/-- The first operand's block at position t, entry (p, l), is the matrix's entry at row 1024 (t / 16) + p and
    feature 512 (t % 8) + l. -/
theorem iblk0_apply (c : Dev nD) (t : Fin cfg0.N) (p : Fin 1024) (l : Fin 512) (r : Fin 8192) (i : Fin 4096)
    (hr : r.val = 1024 * (t.val / 16) + p.val) (hi : i.val = 512 * (t.val % 8) + l.val) :
    (iblk m c 0 t : Vec Ideal S1024x512 .bf16) (ix2 p l) = V m c main_v2 (ix2 r i) := by
  obtain ⟨e0, e1, -⟩ := idx_facts t
  unfold iblk
  rw [View.read_apply]
  show V m c main_v2 _ = V m c main_v2 _
  congr 1
  funext a
  apply Fin.ext
  match a with
  | ⟨0, _⟩ => show win0_0.index t 0 * 1024 + 1 * p.val = r.val; rw [e0, hr]; omega
  | ⟨1, _⟩ => show win0_0.index t 1 * 512 + 1 * l.val = i.val; rw [e1, hi]; omega

/-- The second operand's block at position t, entry (q, l), is the matrix's entry at row 2048 ((t / 8) % 2) + q and
    feature 512 (t % 8) + l. -/
theorem iblk1_apply (c : Dev nD) (t : Fin cfg0.N) (q : Fin 2048) (l : Fin 512) (o : Fin 4096) (i : Fin 4096)
    (ho : o.val = 2048 * ((t.val / 8) % 2) + q.val) (hi : i.val = 512 * (t.val % 8) + l.val) :
    (iblk m c 1 t : Vec Ideal S2048x512 .bf16) (ix2 q l) = V m c main_v4 (ix2 o i) := by
  obtain ⟨-, -, e2, e3, -⟩ := idx_facts t
  unfold iblk
  rw [View.read_apply]
  show V m c main_v4 _ = V m c main_v4 _
  congr 1
  funext a
  apply Fin.ext
  match a with
  | ⟨0, _⟩ => show win0_1.index t 0 * 2048 + 1 * q.val = o.val; rw [e2, ho]; omega
  | ⟨1, _⟩ => show win0_1.index t 1 * 512 + 1 * l.val = i.val; rw [e3, hi]; omega

/-- The block of scales at position t, entry (0, q), is the row of scales' entry 2048 ((t / 8) % 2) + q. -/
theorem iblk2_apply (c : Dev nD) (t : Fin cfg0.N) (q : Fin 2048) (o : Fin 4096)
    (ho : o.val = 2048 * ((t.val / 8) % 2) + q.val) :
    (iblk m c 2 t : Vec Ideal S1x2048 .f32) (ix2 (0 : Fin 1) q) = V m c main_v10 (ix2 (0 : Fin 1) o) := by
  obtain ⟨-, -, -, -, e4, e5, -⟩ := idx_facts t
  unfold iblk
  rw [View.read_apply]
  show V m c main_v10 _ = V m c main_v10 _
  congr 1
  funext a
  apply Fin.ext
  match a with
  | ⟨0, _⟩ => show win0_2.index t 0 * 1 + 1 * 0 = 0; rw [e4]
  | ⟨1, _⟩ => show win0_2.index t 1 * 2048 + 1 * q.val = o.val; rw [e5, ho]; omega

end Cert.SignLinear.Region

end
-- ==== Proof.RegionValueAcc.lean ====
/-
  The accumulator over a row of eight grid points, and the block the last of them writes.

  For a row r of the first matrix and a row o of the second, the inner product over the 4096 features is the sum
  over the eight feature blocks k of the block's contribution, the sum over its 512 features.  Along the eight
  consecutive grid points that share a row block and a column block, the accumulator entry (p, q) is zeroed and then
  gains one feature block's contribution per point, so that after the point with feature block k it holds the total
  of the blocks 0 … k; after the eighth it holds the whole inner product, and the output block's entry is that
  times the scale of its column.
-/
import proofs.«143307_j61529701482741_2_alg».proof.Proof.RegionValueBlocks
import proofs.«143307_j61529701482741_2_alg».proof.Proof.PointValue
import proofs.«143307_j61529701482741_2_alg».proof.Proof.LibBlockSum

noncomputable section

namespace Cert.SignLinear.Region

open Idealize.ShloMosaic Idealize.ShloMosaic.TcCoe Idealize.SL.Sem Idealize.ShloMosaic.ValueIdx
open Cert.KernelIdeal Cert.KernelIdeal.Gen Cert.SignLinear

open Cert.BlockSum

/-- The contribution of feature block k to the inner product of row r of A and row o of B. -/
def featBlock (A : MatShape.Idx → EReal) (B : WtShape.Idx → EReal) (r : Fin 8192) (o : Fin 4096) (k : Fin 8) : EReal :=
  ∑ l : Fin 512, A (ix2 r (featIdx k l)) * B (ix2 o (featIdx k l))

/-- The inner product over all features is the sum of the eight feature blocks' contributions. -/
theorem sum_featBlock (A : MatShape.Idx → EReal) (B : WtShape.Idx → EReal) (r : Fin 8192) (o : Fin 4096) :
    ∑ i : Fin 4096, A (ix2 r i) * B (ix2 o i) = ∑ k : Fin 8, featBlock A B r o k :=
  sum_blocks 8 512 (fun i => A (ix2 r i) * B (ix2 o i))

variable (m : (ℓ : Loc nD τ sig) → Buf (Elt Ideal) ℓ)

/-- The product of the two blocks at position t, entry (p, q), is the contribution of feature block t % 8 to the
    inner product of the matrices' rows that p and q are at that position. -/
theorem blockDot_eq (c : Dev nD) (t : Fin cfg0.N) (p : Fin 1024) (q : Fin 2048) (k : Fin 8) (hk : k.val = t.val % 8) :
    Point.blockDot (iblk m c 0 t) (iblk m c 1 t) p q
      = featBlock (V m c main_v2) (V m c main_v4) (rowOf (t.val / 16) p) (colOf ((t.val / 8) % 2) q) k := by
  have hN : t.val < 128 := lt_of_lt_of_eq t.isLt (show cfg0.N = 128 from N_0)
  unfold Point.blockDot featBlock
  refine Finset.sum_congr rfl fun l _ => ?_
  rw [iblk0_apply m c t p l (rowOf (t.val / 16) p) (featIdx k l) (rowOf_val _ (by omega) p)
      (by show 512 * k.val + l.val = _; rw [hk]),
    iblk1_apply m c t q l (colOf ((t.val / 8) % 2) q) (featIdx k l) (colOf_val _ (by omega) q)
      (by show 512 * k.val + l.val = _; rw [hk])]

/-- At a first feature block the accumulator ends at the blocks' product. -/
theorem scratch_at_first (c : Dev nD) (t : Fin cfg0.N) (h0 : t.val % 8 = 0) (p : Fin 1024) (q : Fin 2048) :
    (outsAt0 m c t.val t.isLt).2 (ix2 p q) = Point.blockDot (iblk m c 0 t) (iblk m c 1 t) p q := by
  have h1 : ¬t.val % 8 = 7 := by omega
  rw [outsAt0_A m c t h0 h1]
  dsimp only
  exact Point.scratch_first c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h))
    (iblk m c 0 t) (iblk m c 1 t) (iblk m c 2 t) p q

/-- At a later feature block it ends at what the point before left plus the blocks' product. -/
theorem scratch_at_next (c : Dev nD) (t : Fin cfg0.N) (h0 : ¬t.val % 8 = 0) (p : Fin 1024) (q : Fin 2048) :
    (outsAt0 m c t.val t.isLt).2 (ix2 p q)
      = (outsAt0 m c (t.val - 1) (Nat.lt_of_le_of_lt (Nat.sub_le _ _) t.isLt)).2 (ix2 p q)
        + Point.blockDot (iblk m c 0 t) (iblk m c 1 t) p q := by
  by_cases h1 : t.val % 8 = 7
  · rw [outsAt0_C m c t h0 h1]
    dsimp only
    exact Point.scratch_last c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2 p q
  · rw [outsAt0_B m c t h0 h1]
    dsimp only
    exact Point.scratch_middle c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (fun h => h1 ((hcond0_1 t).mp h))
      (iblk m c 0 t) (iblk m c 1 t) (iblk m c 2 t)
      (outsAt0 m c (t.val - 1) (Nat.lt_of_le_of_lt (Nat.sub_le _ _) t.isLt)).2 p q

/-- At the last feature block the output block's entry is the finished accumulator's times the scale of its column. -/
theorem out_at_last (c : Dev nD) (t : Fin cfg0.N) (h1 : t.val % 8 = 7) (p : Fin 1024) (q : Fin 2048) :
    (outsAt0 m c t.val t.isLt).1 (ix2 p q)
      = ((outsAt0 m c (t.val - 1) (Nat.lt_of_le_of_lt (Nat.sub_le _ _) t.isLt)).2 (ix2 p q)
          + Point.blockDot (iblk m c 0 t) (iblk m c 1 t) p q) * (iblk m c 2 t : Vec Ideal S1x2048 .f32) (ix2 (0 : Fin 1) q) := by
  have h0 : ¬t.val % 8 = 0 := by omega
  rw [outsAt0_C m c t h0 h1]
  dsimp only
  exact Point.out_last c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1)
    (iblk m c 0 t) (iblk m c 1 t) (iblk m c 2 t)
    (outsAt0 m c (t.val - 1) (Nat.lt_of_le_of_lt (Nat.sub_le _ _) t.isLt)).2 p q

/-- The invariant: after position n the accumulator's entry (p, q) is the total of the feature blocks 0 … n % 8 of the
    inner product of the rows that p and q are in n's row block and column block. -/
theorem acc_eq (c : Dev nD) : ∀ (n : ℕ) (hn : n < cfg0.N) (p : Fin 1024) (q : Fin 2048),
    (outsAt0 m c n hn).2 (ix2 p q)
      = blockPartial 8 (featBlock (V m c main_v2) (V m c main_v4) (rowOf (n / 16) p) (colOf ((n / 8) % 2) q)) (n % 8 + 1) := by
  intro n
  induction n with
  | zero =>
    intro hn p q
    rw [scratch_at_first m c ⟨0, hn⟩ rfl p q, blockDot_eq m c ⟨0, hn⟩ p q ⟨0, by norm_num⟩ rfl]
    show _ = blockPartial 8 _ (0 + 1)
    rw [blockPartial_succ 8 _ 0 (by norm_num), blockPartial_zero, zero_add]
  | succ n ih =>
    intro hn p q
    have hN : n + 1 < 128 := lt_of_lt_of_eq hn (show cfg0.N = 128 from N_0)
    by_cases h0 : (n + 1) % 8 = 0
    · rw [scratch_at_first m c ⟨n + 1, hn⟩ h0 p q, blockDot_eq m c ⟨n + 1, hn⟩ p q ⟨0, by norm_num⟩ h0.symm, h0,
        blockPartial_succ 8 _ 0 (by norm_num), blockPartial_zero, zero_add]
    · rw [scratch_at_next m c ⟨n + 1, hn⟩ h0 p q]
      show (outsAt0 m c n _).2 (ix2 p q) + _ = _
      rw [ih _ p q, blockDot_eq m c ⟨n + 1, hn⟩ p q ⟨(n + 1) % 8, Nat.mod_lt _ (by norm_num)⟩ rfl]
      show blockPartial 8 (featBlock _ _ (rowOf (n / 16) p) (colOf ((n / 8) % 2) q)) (n % 8 + 1)
        + featBlock _ _ (rowOf ((n + 1) / 16) p) (colOf (((n + 1) / 8) % 2) q) _ = _
      rw [show n / 16 = (n + 1) / 16 by omega, show (n / 8) % 2 = ((n + 1) / 8) % 2 by omega,
        show n % 8 + 1 = (n + 1) % 8 by omega]
      exact (blockPartial_succ 8 _ ((n + 1) % 8) _).symm

/-- What a last point writes: the output block's entry (p, q) at a position with feature block 7 is the result's entry
    at the row and column that p and q are there. -/
theorem out_block_eq (c : Dev nD) (t : Fin cfg0.N) (h7 : t.val % 8 = 7) (p : Fin 1024) (q : Fin 2048) :
    (outsAt0 m c t.val t.isLt).1 (ix2 p q)
      = regionOut (V m c main_v2) (V m c main_v4) (V m c main_v10)
          (ix2 (rowOf (t.val / 16) p) (colOf ((t.val / 8) % 2) q)) := by
  have hN : t.val < 128 := lt_of_lt_of_eq t.isLt (show cfg0.N = 128 from N_0)
  rw [out_at_last m c t h7 p q, acc_eq m c (t.val - 1) _ p q, blockDot_eq m c t p q ⟨7, by norm_num⟩ h7.symm,
    iblk2_apply m c t q (colOf ((t.val / 8) % 2) q) (colOf_val _ (by omega) q),
    show (t.val - 1) / 16 = t.val / 16 by omega, show ((t.val - 1) / 8) % 2 = (t.val / 8) % 2 by omega,
    show (t.val - 1) % 8 + 1 = 7 by omega, regionOut_apply, sum_featBlock]
  congr 1
  exact ((blockPartial_succ 8 _ 7 (by norm_num)).symm.trans (blockPartial_all 8 _))

end Cert.SignLinear.Region

end
-- ==== Proof.RegionValue.lean ====
/-
  The array the pipeline leaves: the block-accumulated sign inner product, rescaled.

  The output window's block is written back exactly at the points with feature block 7, and what such a point writes
  is the block of rows 1024 (t / 16) … and columns 2048 ((t / 8) % 2) … of the matrix form `regionOut`.  Every entry
  (r, o) of the [8192, 4096] result lies in the block of the point 16 (r / 1024) + 8 (o / 2048) + 7, so the written
  blocks cover the array and it ends holding `regionOut`.
-/
import proofs.«143307_j61529701482741_2_alg».proof.Proof.Gen.KernelIdeal.Frame
import proofs.«143307_j61529701482741_2_alg».proof.Proof.Spec
import proofs.«143307_j61529701482741_2_alg».proof.Proof.PointValue
import proofs.«143307_j61529701482741_2_alg».proof.Proof.LibBlockSum
import proofs.«143307_j61529701482741_2_alg».proof.Proof.RegionValueAcc

noncomputable section

namespace Cert.SignLinear.Region

open Idealize.ShloMosaic Idealize.ShloMosaic.TcCoe Idealize.SL.Sem Idealize.ShloMosaic.ValueIdx
open Cert.KernelIdeal Cert.KernelIdeal.Gen Cert.SignLinear

/-- What a point that writes the output block back writes is that block of `regionOut` of the three operand arrays. -/
theorem flushed_eq (m : (ℓ : Loc nD τ sig) → Buf (Elt Ideal) ℓ) (c : Dev nD) (t : Fin cfg0.N)
    (hf : (cfg0.win 3).flush t = true) :
    (dats m 0 c).flushed 3 t
      = ((cfg0.win 3).blk t).view.read (Elt Ideal) (regionOut (V m c main_v2) (V m c main_v4) (V m c main_v10)) := by
  have hN : t.val < 128 := lt_of_lt_of_eq t.isLt (show cfg0.N = 128 from N_0)
  have h7 : t.val % 8 = 7 := (flush0_3 t).mp hf
  obtain ⟨-, -, -, -, -, -, e6, e7⟩ := idx_facts t
  show (cfg0.win 3).cut (grid0.coords t) ((dats m 0 c).after 3 t) = _
  rw [after0_3]
  funext j
  rw [View.read_apply]
  have hj0 : (j 0).val < 1024 := (j 0).isLt
  have hj1 : (j 1).val < 2048 := (j 1).isLt
  have hj : (cfg0.win 3).xinj (grid0.coords t) j = ix2 (⟨(j 0).val, hj0⟩ : Fin 1024) (⟨(j 1).val, hj1⟩ : Fin 2048) := by
    funext a
    match a with
    | ⟨0, _⟩ => rfl
    | ⟨1, _⟩ => rfl
  show (outsAt0 m c t.val t.isLt).1 ((cfg0.win 3).xinj (grid0.coords t) j) = _
  rw [hj, out_block_eq m c t h7]
  congr 1
  funext a
  apply Fin.ext
  match a with
  | ⟨0, _⟩ =>
    show (rowOf (t.val / 16) ⟨(j 0).val, hj0⟩).val = win0_3.index t 0 * 1024 + 1 * (j 0).val
    rw [rowOf_val _ (by omega), e6]; show 1024 * (t.val / 16) + (j 0).val = _; omega
  | ⟨1, _⟩ =>
    show (colOf ((t.val / 8) % 2) ⟨(j 1).val, hj1⟩).val = win0_3.index t 1 * 2048 + 1 * (j 1).val
    rw [colOf_val _ (by omega), e7]; show 2048 * ((t.val / 8) % 2) + (j 1).val = _; omega

/-- Every entry of the result lies in the block some writing point writes: entry (r, o) in that of the point with row
    block r / 1024, column block o / 2048 and feature block 7. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ : ∃ t : Fin cfg0.N, t.val = 16 * ((i 0).val / 1024) + 8 * ((i 1).val / 2048) + 7 :=
    ⟨⟨16 * ((i 0).val / 1024) + 8 * ((i 1).val / 2048) + 7,
      lt_of_lt_of_eq (by omega : 16 * ((i 0).val / 1024) + 8 * ((i 1).val / 2048) + 7 < 128) (show cfg0.N = 128 from N_0).symm⟩, rfl⟩
  obtain ⟨-, -, -, -, -, -, e6, e7⟩ := idx_facts t
  refine ⟨t, (flush0_3 t).mpr (by omega), ?_⟩
  show i ∈ ((View.whole main_v11).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [e6]; omega
  | ⟨1, _⟩ =>
    show win0_3.index t 1 * 2048 ≤ (i 1).val ∧ (i 1).val < win0_3.index t 1 * 2048 + 2048
    rw [e7]; omega

/-- After the last grid point the output array holds, at (r, o), the inner product over all 4096 features of row r of
    the first operand's array and row o of the second's, times entry o of the row of scales. -/
theorem final (m : (ℓ : Loc nD τ sig) → Buf (Elt Ideal) ℓ) (c : Dev nD) :
    (dats m 0 c).arrAt 3 cfg0.N = regionOut (V m c main_v2) (V m c main_v4) (V m c main_v10) :=
  (dats m 0 c).arrAt_eq_of_cover 3 (regionOut (V m c main_v2) (V m c main_v4) (V m c main_v10))
    (fun t hf => flushed_eq m c t hf) cover

end Cert.SignLinear.Region

end
-- ==== Proof.HostSide.lean ====
/-
  The host side of the kernel program, read entry by entry on the extended reals.

  Before the region the program prepares three arrays from the activations X : [4, 2048, 4096] and the weights
  W : [4096, 4096]:

    * the left operand, [8192, 4096]: X with its two leading axes merged (row 2048 b + s is row (b, s), since both
      sit at position (2048 b + s) · 4096 + i in row-major order), then the sign of every entry;
    * the right operand, [4096, 4096]: the sign of every entry of W;
    * the row of scales, [1, 4096]: |W| summed along each row starting from zero, the column of sums divided by
      the constant column 4096, and that column laid out as a row — entry (0, o) is Spec's `rowScale W o`.

  The narrowing to the 16-bit format that follows each sign is the identity on extended reals. After the region the
  one remaining operation splits the leading axis of the region's [8192, 4096] output back into [4, 2048], so entry
  (b, s, o) of the result is entry (2048 b + s, o) of that output.

  Each operation is first read at an index over an arbitrary operand (a reshape keeps the row-major position, a
  broadcast drops or repeats a coordinate, the row sum is the initial value plus the finite sum of the row); the four
  statements at the end compose these readings along the program's host operations.
-/
import proofs.«143307_j61529701482741_2_alg».proof.Proof.Gen.KernelIdeal.Frame
import proofs.«143307_j61529701482741_2_alg».proof.Proof.Spec
import Idealize.ShloMosaic.Lib.Pipeline.Value
import Idealize.ShloMosaic.Lib.ValueIdx
import Idealize.ShloMosaic.PureOps.Ideal.Laws

noncomputable section

namespace Cert.SignLinear.HostSide

open Idealize.ShloMosaic Idealize.ShloMosaic.TcCoe Idealize.SL.Sem Idealize.ShloMosaic.ValueIdx
open Cert.KernelIdeal Cert.KernelIdeal.Gen Cert.SignLinear

variable (m : (ℓ : Loc nD τ sig) → Buf (Elt Ideal) ℓ) (c : Dev nD)

/-! ## The three operand arrays as terms over the launch contents -/

/-- The row of scales as a function of the weights: absolute values summed along each row from zero, the column of
    sums divided by the constant column 4096, and the column laid out as a row. -/
def scaleRow (W : FVec Ideal S4096x4096 .f32) : FVec Ideal S1x4096 .f32 :=
  shapeCast S1x4096
    (Host.divf (F := Ideal)
      (broadcastInDim S4096x1 ![0] bcast_S4096_S4096x1_0
        (Host.reduceAdd (F := Ideal) (Host.absf (F := Ideal) W) (constant (F := Ideal) S_ .f32 0x00000000#32)
          reducesTo_S4096x4096_S4096_d1 h_S_))
      (broadcastInDim S4096x1 ![] bcast_S_S4096x1 (constant (F := Ideal) S_ .f32 0x45800000#32)))
    shapeCasts_S4096x1_S1x4096

/-- The first operand is the sign of the activations with the two leading axes merged. -/
theorem V_main_v2_eq :
    (V m c main_v2 : S8192x4096.Idx → EReal)
      = truncf .bf16 (Host.sign (F := Ideal) (shapeCast S8192x4096 (m ((c.tc : Thread nD τ).loc main_arg0)) shapeCasts_S4x2048x4096_S8192x4096) : FVec Ideal S8192x4096 .f32) bitsLt_bf16_f32 := by
  show StableHlo.after hostOps0 (fun b => m (c, b)) (Proc.devRef .tc main_v2) = _
  after_results
  rfl

/-- The second operand is the sign of the weights. -/
theorem V_main_v4_eq :
    (V m c main_v4 : S4096x4096.Idx → EReal)
      = truncf .bf16 (Host.sign (F := Ideal) (m ((c.tc : Thread nD τ).loc main_arg1)) : FVec Ideal S4096x4096 .f32) bitsLt_bf16_f32 := by
  show StableHlo.after hostOps0 (fun b => m (c, b)) (Proc.devRef .tc main_v4) = _
  after_results

/-- The third operand is the row of scales of the weights. -/
theorem V_main_v10_eq :
    (V m c main_v10 : S1x4096.Idx → EReal) = scaleRow (m ((c.tc : Thread nD τ).loc main_arg1)) := by
  show StableHlo.after hostOps0 (fun b => m (c, b)) (Proc.devRef .tc main_v10) = _
  after_results
  rfl

/-! ## Each operation read at an index, over an arbitrary operand -/

/-- Merging the two leading axes: row 2048 b + s of the matrix is row (b, s) of the array (both positions are
    (2048 b + s) · 4096 + i in row-major order). -/
theorem merge_at (X : S4x2048x4096.Idx → EReal) (b : Fin 4) (s : Fin 2048) (i : Fin 4096) :
    shapeCast S8192x4096 X shapeCasts_S4x2048x4096_S8192x4096 (ix2 (mergedRow b s) i) = X (ix3 b s i) :=
  shapeCast_apply X shapeCasts_S4x2048x4096_S8192x4096 _ _ (by
    rw [Shape.rowMajor_val_three, Shape.rowMajor_val_two]
    show (b.val * 2048 + s.val) * 4096 + i.val = (2048 * b.val + s.val) * 4096 + i.val
    omega)

/-- Splitting the leading axis back: entry (b, s, o) of the array is entry (2048 b + s, o) of the matrix. -/
theorem split_at (Y : S8192x4096.Idx → EReal) (b : Fin 4) (s : Fin 2048) (o : Fin 4096) :
    shapeCast S4x2048x4096 Y shapeCasts_S8192x4096_S4x2048x4096 (ix3 b s o) = Y (ix2 (mergedRow b s) o) :=
  shapeCast_apply Y shapeCasts_S8192x4096_S4x2048x4096 _ _ (by
    rw [Shape.rowMajor_val_three, Shape.rowMajor_val_two]
    show (2048 * b.val + s.val) * 4096 + o.val = (b.val * 2048 + s.val) * 4096 + o.val
    omega)

/-- A column laid out as a row: entry (0, o) of the row is entry (o, 0) of the column. -/
theorem col_as_row_at (y : S4096x1.Idx → EReal) (o : Fin 4096) :
    shapeCast S1x4096 y shapeCasts_S4096x1_S1x4096 (ix2 (0 : Fin 1) o) = y (ix2 o (0 : Fin 1)) :=
  shapeCast_apply y shapeCasts_S4096x1_S1x4096 _ _ (by
    rw [Shape.rowMajor_val_two, Shape.rowMajor_val_two]
    show o.val * 1 + 0 = 0 * 4096 + o.val
    omega)

/-- A vector broadcast to a column: entry (o, 0) of the column is entry o of the vector. -/
theorem vec_as_col_at (y : S4096.Idx → EReal) (o : Fin 4096) :
    broadcastInDim S4096x1 ![0] bcast_S4096_S4096x1_0 y (ix2 o (0 : Fin 1)) = y (ix1 o) :=
  broadcastInDim_apply _ bcast_S4096_S4096x1_0 y _ (ix1 o) (fun a => match a with
    | ⟨0, _⟩ => by show o.val = if (4096 : Nat) = 1 then 0 else o.val; rw [if_neg (by decide)])

/-- A scalar broadcast to a column reads the scalar everywhere. -/
theorem scalar_as_col_at (y : S_.Idx → EReal) (j : S4096x1.Idx) :
    broadcastInDim S4096x1 (![] : Fin 0 → Fin S4096x1.rank) bcast_S_S4096x1 y j = y ix0 :=
  broadcastInDim_apply (s := S_) (![] : Fin 0 → Fin S4096x1.rank) bcast_S_S4096x1 y j ix0 (fun a => a.elim0)

/-- The sum along a row from an initial value: entry o is the initial value plus the sum of row o. -/
theorem row_sum_at (y : FVec Ideal S4096x4096 .f32) (z : FVec Ideal S_ .f32) (o : Fin 4096) :
    Host.reduceAdd (F := Ideal) y z reducesTo_S4096x4096_S4096_d1 h_S_ (ix1 o)
      = z (Shape.Idx.first h_S_) + ∑ k : Fin 4096, y (ix2 o k) := by
  simp only [Host.reduceAdd, Ideal.hostReduceAdd_def]
  rw [Ideal.hostReduceAdd_single reducesTo_S4096x4096_S4096_d1 (by decide)]
  refine congrArg (_ + ·) (Finset.sum_congr rfl fun k _ => ?_)
  exact congrArg y (funext fun a => Fin.ext (by match a with | ⟨0, _⟩ => rfl | ⟨1, _⟩ => rfl))

/-- The row of scales at (0, o) is the mean absolute value of weight row o. -/
theorem scaleRow_at (W : FVec Ideal S4096x4096 .f32) (o : Fin 4096) :
    scaleRow W (ix2 (0 : Fin 1) o) = rowScale W o := by
  unfold scaleRow rowScale
  rw [col_as_row_at]
  show Ideal.div (broadcastInDim (s := S4096) S4096x1 ![0] bcast_S4096_S4096x1_0 _ (ix2 o (0 : Fin 1)))
      (broadcastInDim (s := S_) S4096x1 ![] bcast_S_S4096x1 _ (ix2 o (0 : Fin 1))) = _
  rw [vec_as_col_at, scalar_as_col_at, row_sum_at]
  rfl

/-! ## The operand arrays at an index -/

/-- The first operand's array at (2048 b + s, i) is the sign of the activation at (b, s, i). -/
theorem lhs_at (b : Fin 4) (s : Fin 2048) (i : Fin 4096) :
    V m c main_v2 (ix2 (mergedRow b s) i) = Ideal.sign (m ((c.tc : Thread nD τ).loc main_arg0) (ix3 b s i)) := by
  rw [V_main_v2_eq]
  exact congrArg Ideal.sign (merge_at _ b s i)

/-- The second operand's array at (o, i) is the sign of the weight at (o, i). -/
theorem rhs_at (o i : Fin 4096) :
    V m c main_v4 (ix2 o i) = Ideal.sign (m ((c.tc : Thread nD τ).loc main_arg1) (ix2 o i)) := by
  rw [V_main_v4_eq]
  rfl

/-- The row of scales at (0, o) is the mean absolute value of weight row o. -/
theorem scale_at (o : Fin 4096) :
    V m c main_v10 (ix2 (0 : Fin 1) o) = rowScale (m ((c.tc : Thread nD τ).loc main_arg1)) o := by
  rw [V_main_v10_eq]
  exact scaleRow_at _ o

/-! ## After the region -/

/-- The region's output array is the fourth of the arrays the region leaves, whatever the other buffers hold. -/
theorem out_arr (V : Valuation τ sig (Elt Ideal))
    (A : (w : Fin 4) → Buf (Elt Ideal) ((spec0 w).arr.view.loc (c.tc : Thread nD τ))) :
    Pipeline.withArrays spec0 c V A (Proc.devRef .tc main_v11) = A 3 :=
  Pipeline.withArrays_arr spec0 launch0.win.arr_inj c V A 3

/-- Whatever the buffers hold when the region ends, the reshape that follows leaves in the result buffer the output
    array with its leading axis split. -/
theorem reshape_tail (VV : Valuation τ sig (Elt Ideal)) :
    (StableHlo.after hostOps1 VV (Proc.devRef .tc main_v12) : S4x2048x4096.Idx → EReal)
      = shapeCast S4x2048x4096 (VV (Proc.devRef .tc main_v11) : S8192x4096.Idx → EReal) shapeCasts_S8192x4096_S4x2048x4096 := by
  after_results
  rfl

/-- The result buffer after the reshape that follows the region: entry (b, s, o) is the output array's at (2048 b + s, o). -/
theorem tail_at (b : Fin 4) (s : Fin 2048) (o : Fin 4096) :
    Pipeline.afterTail₀ cfgs (dats m) 0 (V0 m) [hostOps1] c main_v12 (ix3 b s o)
      = (dats m 0 c).arrAt 3 cfg0.N (ix2 (mergedRow b s) o) := by
  unfold Pipeline.afterTail₀
  show StableHlo.after hostOps1 _ (Proc.devRef .tc main_v12) (ix3 b s o) = _
  rw [reshape_tail, split_at, out_arr]

end Cert.SignLinear.HostSide

end
-- ==== Proof.KernelValue.lean ====
/-
  The kernel program ends with the specification in its result buffer.

  The region leaves in its output array, at (r, o), the inner product over all features of row r of the merged sign
  activations and row o of the sign weights, times the scale of row o. The reshape that follows reads entry (b, s, o)
  from row 2048 b + s. The merged sign activations at (2048 b + s, i) are the sign of X(b, s, i), the sign weights at
  (o, i) the sign of W(o, i), and the row of scales at o is the mean absolute value of weight row o: so entry (b, s, o)
  of the result is the specification's.
-/
import proofs.«143307_j61529701482741_2_alg».proof.Proof.Gen.KernelIdeal.Frame
import proofs.«143307_j61529701482741_2_alg».proof.Proof.Spec
import proofs.«143307_j61529701482741_2_alg».proof.Proof.RegionValue
import proofs.«143307_j61529701482741_2_alg».proof.Proof.HostSide

noncomputable section

namespace Cert.SignLinear.Kernel

open Idealize.ShloMosaic Idealize.ShloMosaic.TcCoe Idealize.SL.Sem Idealize.ShloMosaic.ValueIdx
open Cert.KernelIdeal Cert.KernelIdeal.Gen Cert.SignLinear

/-- The result buffer after the reshape that follows the region is the specification of the launch contents. -/
theorem result_eq (m : (ℓ : Loc nD τ sig) → Buf (Elt Ideal) ℓ) (c : Dev nD) :
    Pipeline.afterTail₀ cfgs (dats m) 0 (V0 m) [hostOps1] c main_v12
      = G (m ((c.tc : Thread nD τ).loc main_arg0)) (m ((c.tc : Thread nD τ).loc main_arg1)) := by
  funext j
  obtain ⟨b, s, o, rfl⟩ : ∃ (b : Fin 4) (s : Fin 2048) (o : Fin 4096), j = ix3 b s o := ⟨j 0, j 1, j 2, eq_ix3 j⟩
  rw [HostSide.tail_at, Region.final, regionOut_apply, G_apply, HostSide.scale_at]
  unfold signDot
  refine congrArg (· * _) (Finset.sum_congr rfl fun i _ => ?_)
  rw [HostSide.lhs_at, HostSide.rhs_at]

/-- Every weakly fair execution of the kernel program ends with the specification in the result buffer and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v12)
        = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v12 (Pipeline.mem_restRefs_of main_v12 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.SignLinear.Kernel

end
-- ==== Proof.RefValueReal.lean ====
/-
  Real numbers among the extended reals: what the reference's straight-through terms need.

  The reference wraps each sign in a difference that it adds back, (sign x - q) + q. On the extended reals
  (a - b) + b = a for every a as soon as b is a real number; at b = ±∞ the left side does not depend on a. This
  file proves that cancellation, the closure of the real numbers under the operations q is built from (negation,
  the larger and the smaller of two numbers, a choice between two numbers), reads the float literals -1, 1, 2 and
  4096 as the real numbers they denote, and shows that a weight row's mean absolute value is a real number when
  the weights are. Nothing here mentions a program.
-/
import Idealize.ShloMosaic.PureOps.Ideal.Laws
import proofs.«143307_j61529701482741_2_alg».proof.Proof.Spec

noncomputable section

namespace Cert.SignLinear.Ref

open Idealize.ShloMosaic Idealize.ShloMosaic.ValueIdx
open Cert.SignLinear Cert.EdgeLoss Cert.RealScale

/-! ## Cancellation -/

/-- Subtracting a real number and adding it back changes nothing, at every extended real: at the two infinities
    both steps leave the infinity where it is, and on the reals it is the reals' identity. -/
theorem sub_add_cancel_real (a : EReal) {b : EReal} (hb : IsReal b) : a - b + b = a := by
  obtain ⟨r, rfl⟩ := hb
  induction a using EReal.rec with
  | bot => rw [EReal.bot_sub, EReal.bot_add]
  | coe x => rw [← EReal.coe_sub, ← EReal.coe_add, sub_add_cancel]
  | top => rw [EReal.top_sub_coe, EReal.top_add_coe]

/-! ## Closure of the real numbers -/

theorem isReal_neg {x : EReal} (hx : IsReal x) : IsReal (-x) := by
  obtain ⟨a, rfl⟩ := hx; exact ⟨-a, (EReal.coe_neg a).symm⟩

/-- The larger of two real numbers is one of them. -/
theorem isReal_max {x y : EReal} (hx : IsReal x) (hy : IsReal y) : IsReal (max x y) := by
  rcases max_choice x y with h | h <;> rw [h] <;> assumption

/-- The smaller of two real numbers is one of them. -/
theorem isReal_min {x y : EReal} (hx : IsReal x) (hy : IsReal y) : IsReal (min x y) := by
  rcases min_choice x y with h | h <;> rw [h] <;> assumption

/-- A choice between two real numbers is real, whichever way the condition falls. -/
theorem isReal_select (c : BitVec 1) {x y : EReal} (hx : IsReal x) (hy : IsReal y) : IsReal (Scalar.select c x y) := by
  unfold Scalar.select; split <;> assumption

/-! ## The literals -/

/-- The pattern `0xBF800000` (sign set, exponent 127, no fraction) denotes -1. -/
theorem ofBits_neg_one : Ideal.ofBits .f32 0xBF800000#32 = ((-1 : ℝ) : EReal) := by
  simp [Ideal.ofBits, Ideal.ieee, -EReal.coe_mul, -EReal.coe_neg]; norm_num

/-- The pattern `0x3F800000` (exponent 127, no fraction) denotes 1. -/
theorem ofBits_one : Ideal.ofBits .f32 0x3F800000#32 = ((1 : ℝ) : EReal) := by
  simp [Ideal.ofBits, Ideal.ieee, -EReal.coe_mul]; norm_num

/-- The pattern `0x40000000` (exponent 128, no fraction) denotes 2. -/
theorem ofBits_two : Ideal.ofBits .f32 0x40000000#32 = ((2 : ℝ) : EReal) := by
  simp [Ideal.ofBits, Ideal.ieee, -EReal.coe_mul]; norm_num

/-- The pattern `0x45800000` (exponent 139, no fraction) denotes 2¹² = 4096. -/
theorem ofBits_4096 : Ideal.ofBits .f32 0x45800000#32 = ((4096 : ℝ) : EReal) := by
  simp [Ideal.ofBits, Ideal.ieee, -EReal.coe_mul]; norm_num

theorem isReal_lit_neg_one : IsReal (Ideal.ofBits .f32 0xBF800000#32) := ⟨_, ofBits_neg_one⟩
theorem isReal_lit_one : IsReal (Ideal.ofBits .f32 0x3F800000#32) := ⟨_, ofBits_one⟩
theorem isReal_lit_two : IsReal (Ideal.ofBits .f32 0x40000000#32) := ⟨_, ofBits_two⟩

/-! ## The pieces the reference subtracts and adds back -/

/-- The clipped quadratic x ↦ -1 (x < -1), x² + 2x (x < 0), -x² + 2x (x < 1), 1 (otherwise), written with the
    three comparisons as arbitrary conditions: at a real x every branch is a real number. -/
theorem isReal_surrogate (c1 c0 cm1 : BitVec 1) {x : EReal} (hx : IsReal x) :
    IsReal (Scalar.select c1
      (Scalar.select c0
        (Scalar.select cm1 (Ideal.ofBits .f32 0xBF800000#32) (x * x + Ideal.ofBits .f32 0x40000000#32 * x))
        (-x * x + Ideal.ofBits .f32 0x40000000#32 * x))
      (Ideal.ofBits .f32 0x3F800000#32)) :=
  isReal_select _
    (isReal_select _
      (isReal_select _ isReal_lit_neg_one ((hx.mul hx).add (isReal_lit_two.mul hx)))
      (((isReal_neg hx).mul hx).add (isReal_lit_two.mul hx)))
    isReal_lit_one

/-- A real number clipped to [-1, 1] is a real number. -/
theorem isReal_clip {w : EReal} (hw : IsReal w) :
    IsReal (min (Ideal.ofBits .f32 0x3F800000#32) (max (Ideal.ofBits .f32 0xBF800000#32) w)) :=
  isReal_min isReal_lit_one (isReal_max isReal_lit_neg_one hw)

/-! ## The row scale -/

/-- The mean absolute value of a row of real weights is a real number: a finite sum of real numbers from zero,
    times the real 1/4096. -/
theorem isReal_rowScale (W : WtShape.Idx → EReal) (hW : ∀ i, IsReal (W i)) (o : Fin 4096) : IsReal (rowScale W o) := by
  unfold rowScale
  rw [ofBits_4096, Ideal.div_coe (by norm_num), Ideal.ofBits_zero_f32]
  exact (isReal_zero.add (isReal_sum _ _ fun i _ => isReal_max (hW _) (isReal_neg (hW _)))).mul (isReal_coe _)

end Cert.SignLinear.Ref

end
-- ==== Proof.RefValue.lean ====
/-
  The reference's result is the specification, for real inputs.

  The reference contracts two straight-through factors along the input features:

      xq = (sign x - q x) + q x,    q the clipped quadratic -1 / x² + 2x / -x² + 2x / 1 on the four ranges of x,
      wq = (sc · sign w - clip w) + clip w,    clip w = min 1 (max (-1) w),  sc the row's mean absolute value.

  At a real x every branch of q x is a real number, and a real w clipped to [-1, 1] is a real number; subtracting
  a real number and adding it back changes nothing, so xq = sign x and wq = sc · sign w. The contraction is then
  ∑ i, sign X(b,s,i) · (sc · sign W(o,i)), and the real factor sc moves out of the finite sum of real products:
  the result is (∑ i, sign X(b,s,i) · sign W(o,i)) · sc, the specification.
-/
import proofs.«143307_j61529701482741_2_alg».proof.Proof.RefImports
import proofs.«143307_j61529701482741_2_alg».proof.Proof.Spec
import proofs.«143307_j61529701482741_2_alg».proof.Proof.RefValueReal

noncomputable section

namespace Cert.SignLinear.Ref

open Idealize.ShloMosaic Idealize.ShloMosaic.ValueIdx
open Cert.SignLinear Cert.EdgeLoss Cert.RealScale
open Cert.ReferenceIdeal Cert.ReferenceIdeal.Read

/-! ## The left factor -/

/-- The quadratic surrogate the reference subtracts from the activation's sign and adds back is a real number at
    a real activation. -/
theorem isReal_surrogate_stage (X : ActShape.Idx → EReal) (j : ActShape.Idx) (hx : IsReal (X j)) :
    IsReal (val_main_v17 (F := Ideal) X j) := by
  rw [val_main_v17_apply, val_main_call2_v1_apply, val_main_call2_v0_apply, val_main_cst_5_apply,
    val_main_v16_apply, val_main_v10_apply, val_main_call0_v1_apply, val_main_call0_v0_apply, val_main_cst_3_apply,
    val_main_v9_apply, val_main_v6_apply, val_main_v8_apply, val_main_v7_apply, val_main_cst_2_apply,
    val_main_v15_apply, val_main_v12_apply, val_main_v11_apply, val_main_v14_apply, val_main_v13_apply,
    val_main_cst_4_apply]
  simp only [Ideal.ofBits_def, Ideal.addf_def, Ideal.mulf_def, Ideal.hostNegf_def, Ideal.negf_def]
  exact isReal_surrogate _ _ _ hx

/-- The left factor is the activation's sign. -/
theorem left_eq (X : ActShape.Idx → EReal) (j : ActShape.Idx) (hx : IsReal (X j)) :
    val_main_v20 (F := Ideal) X j = Ideal.sign (X j) := by
  rw [val_main_v20_apply, val_main_v19_apply, val_main_v18_apply]
  simp only [Ideal.addf_def, Ideal.subf_def, Ideal.hostUnary_sign_def]
  exact sub_add_cancel_real _ (isReal_surrogate_stage X j hx)

/-! ## The right factor -/

/-- The clipped weight the reference subtracts and adds back is a real number at a real weight. -/
theorem isReal_clip_stage (W : WtShape.Idx → EReal) (i : WtShape.Idx) (hw : IsReal (W i)) :
    IsReal (val_main_v29 (F := Ideal) W i) := by
  rw [val_main_v29_apply, val_main_call3_v4_apply, val_main_call3_v3_apply, val_main_cst_9_apply,
    val_main_call3_v2_apply, val_main_call3_v1_apply, val_main_call3_v0_apply, val_main_cst_8_apply]
  simp only [Ideal.ofBits_def, Ideal.minimumf_def, Ideal.maximumf_def]
  exact isReal_clip hw

/-- The column of scales, broadcast along the input features, is the specification's row scale. -/
theorem scale_eq (W : WtShape.Idx → EReal) (o k : Fin 4096) :
    val_main_v25 (F := Ideal) W (idx_main_v27 (ix2 o k)) = rowScale W o := by
  rw [val_main_v25_apply, val_main_v23_apply, val_main_v22_apply, val_main_v24_apply, val_main_cst_7_apply,
    val_main_cst_6_apply]
  simp only [val_main_v21_apply, Ideal.hostDivf_def, Ideal.hostAbsf_def, Ideal.absf_def, Ideal.ofBits_def]
  unfold rowScale
  refine congrArg (fun t => Ideal.div (Ideal.ofBits .f32 0x00000000#32 + t) (Ideal.ofBits .f32 0x45800000#32))
    (Finset.sum_congr rfl fun i _ => ?_)
  have e : idx_main_v22 (idx_main_v23 (idx_main_v27 (ix2 o k))) i = ix2 o i :=
    funext fun a => Fin.ext (by match a with | ⟨0, _⟩ => rfl | ⟨1, _⟩ => rfl)
  rw [e]

/-- The right factor is the row scale times the weight's sign. -/
theorem right_eq (W : WtShape.Idx → EReal) (hW : ∀ i, IsReal (W i)) (o k : Fin 4096) :
    val_main_v31 (F := Ideal) W (ix2 o k) = rowScale W o * Ideal.sign (W (ix2 o k)) := by
  rw [val_main_v31_apply, val_main_v30_apply]
  simp only [Ideal.addf_def, Ideal.subf_def]
  rw [sub_add_cancel_real _ (isReal_clip_stage W (ix2 o k) (hW _)), val_main_v28_apply, val_main_v27_apply,
    val_main_v26_apply, scale_eq]
  simp only [Ideal.mulf_def, Ideal.hostUnary_sign_def]

/-! ## The contraction -/

/-- For real activations and weights the reference's last stage is the specification. -/
theorem ref_eq (X : ActShape.Idx → EReal) (W : WtShape.Idx → EReal)
    (hX : ∀ i, IsReal (X i)) (hW : ∀ i, IsReal (W i)) :
    Cert.ReferenceIdeal.Read.val_main_v32 (F := Ideal) X W = G X W := by
  refine funext fun (j : ActShape.Idx) => ?_
  obtain ⟨b, s, o, rfl⟩ : ∃ (b : Fin 4) (s : Fin 2048) (o : Fin 4096), j = ix3 b s o := ⟨j 0, j 1, j 2, eq_ix3 j⟩
  have el : ∀ k : Fin 4096, lidx_main_v32 (ix3 b s o) k = ix3 b s k := fun k =>
    funext fun a => Fin.ext (by match a with | ⟨0, _⟩ => rfl | ⟨1, _⟩ => rfl | ⟨2, _⟩ => rfl)
  have er : ∀ k : Fin 4096, ridx_main_v32 (ix3 b s o) k = ix2 o k := fun k =>
    funext fun a => Fin.ext (by match a with | ⟨0, _⟩ => rfl | ⟨1, _⟩ => rfl)
  rw [val_main_v32_apply, G_apply]
  unfold signDot
  rw [← scale_sum (fun i : Fin 4096 => Ideal.sign (X (ix3 b s i))) (fun i : Fin 4096 => Ideal.sign (W (ix2 o i)))
    (rowScale W o) (fun _ => isReal_sign _) (fun _ => isReal_sign _) (isReal_rowScale W hW o)]
  refine Finset.sum_congr rfl fun k _ => ?_
  rw [el, er, left_eq X _ (hX _), right_eq W hW, mul_assoc]

end Cert.SignLinear.Ref

end
-- ==== Proof.FiniteInputs.lean ====
/-
  The precondition says every input entry is a real number.

  The precondition is the conjunction of two "all" tests, one per input: every entry's absolute value (the larger of
  the entry and its negative) is strictly below the word 0x7F800000, which denotes +∞. An extended real whose absolute
  value is below +∞ is neither infinity, so it is a real number. A conjunction of bits is 1 only if both bits are, and
  a reduction by "and" over all axes that is 1 had a 1 at every index.
-/
import proofs.«143307_j61529701482741_2_alg».proof.Pre_finite_inputs
import proofs.«143307_j61529701482741_2_alg».proof.Proof.Gen.Pre_finite_inputs
import proofs.«143307_j61529701482741_2_alg».proof.Proof.LibIsReal
import Idealize.ShloMosaic.PureOps.Ideal
import Idealize.ShloMosaic.Lib.ReduceAll
import Idealize.ShloMosaic.Lib.Affine
import Idealize.ShloMosaic.Lib.ValueIdx
import Idealize.ShloMosaic.Lib.Pipeline.Value

noncomputable section

namespace Cert.SignLinear.Finite

open Idealize.ShloMosaic Idealize.ShloMosaic.ValueIdx Cert.EdgeLoss Cert.Pre_finite_inputs

/-- The scalar shape has one index. -/
instance : Subsingleton S_.Idx := ⟨fun a b => funext fun d => d.elim0⟩

/-- The word 0x7F800000 denotes +∞. -/
theorem inf_word : Ideal.ofBits .f32 0x7F800000#32 = ⊤ := by
  simp [Ideal.ofBits, Ideal.ieee]

/-- An extended real whose absolute value compares strictly below +∞ is a real number. -/
theorem isReal_of_abs_lt (x : EReal)
    (h : Ideal.cmp .olt (max x (-x)) (Ideal.ofBits .f32 0x7F800000#32) = 1#1) : IsReal x := by
  rw [inf_word] at h
  have hlt : max x (-x) < ⊤ := by
    by_contra hn
    simp only [Ideal.cmp, decide_eq_false hn] at h
    exact absurd h (by decide)
  induction x using EReal.rec with
  | bot => exact absurd hlt (by simp)
  | coe r => exact ⟨r, rfl⟩
  | top => exact absurd hlt (by simp)

/-- Under the precondition every entry of both inputs is a real number. -/
theorem isReal_of_pre (X : FVec Ideal S4x2048x4096 .f32) (W : FVec Ideal S4096x4096 .f32)
    (h : Cert.Pre_finite_inputs.fn (F := Ideal) X W = fun _ => 1#1) :
    (∀ i, IsReal (X i)) ∧ (∀ i, IsReal (W i)) := by
  have h0 := congrFun h ix0
  dsimp only [Cert.Pre_finite_inputs.fn] at h0
  obtain ⟨h1, h2⟩ := IntOp.andi_eq_one.1 h0
  refine ⟨fun i => ?_, fun i => ?_⟩
  · have e := Host.reduce_andi_all _ _ _ _ ix0 h1 i
    have hb : broadcastInDim S4x2048x4096 ![] Facts.bcast_S_S4x2048x4096 (constant (F := Ideal) S_ .f32 0x7F800000#32) i
        = Ideal.ofBits .f32 0x7F800000#32 :=
      (broadcastInDim_apply _ _ _ i ix0 (fun a => a.elim0)).trans rfl
    refine isReal_of_abs_lt (X i) ?_
    rw [← hb]
    exact e
  · have e := Host.reduce_andi_all _ _ _ _ ix0 h2 i
    have hb : broadcastInDim S4096x4096 ![] Facts.bcast_S_S4096x4096 (constant (F := Ideal) S_ .f32 0x7F800000#32) i
        = Ideal.ofBits .f32 0x7F800000#32 :=
      (broadcastInDim_apply _ _ _ i ix0 (fun a => a.elim0)).trans rfl
    refine isReal_of_abs_lt (W i) ?_
    rw [← hb]
    exact e

end Cert.SignLinear.Finite

end
-- ==== Proof.lean ====
/-
  A sign-binarised linear layer: the tiled kernel against the einsum reference, on the extended reals.

  For activations X : [4, 2048, 4096] and weights W : [4096, 4096] both programs end with

      G X W (b, s, o) = (∑ i, sign X(b,s,i) · sign W(o,i)) · (0 + ∑ i, |W(o,i)|) / 4096.

  The kernel program merges the two leading axes of X, takes signs, computes the row of mean absolute values, and in
  one tiled region accumulates the inner product of sign rows over eight blocks of 512 features into a scratch
  accumulator, multiplying by the row of scales when the last block is in; a reshape restores the three axes. Sums
  over the extended reals may be regrouped freely, so its result is G for every input (Proof/KernelValue.lean, over
  Proof/RegionValue.lean, Proof/PointValue.lean and Proof/HostSide.lean).

  The reference forms xq = (sign x − p(x)) + p(x) with p a clipped piecewise quadratic, wq = (scale · sign w − clip w)
  + clip w, and contracts xq against wq. For REAL x and w the subtracted terms are real, so they cancel, and the real
  scale moves out of the finite sum of real products: the result is G (Proof/RefValue.lean). Both steps fail at an
  infinity, and the precondition — every input entry finite — is exactly what makes every entry real
  (Proof/FiniteInputs.lean).

  The three programs' frames are the generated ones (the reference's is its generated run with the result dropped);
  the idealisation rewrote nothing, so its ledger is empty.
-/
import proofs.«143307_j61529701482741_2_alg».proof.Defs
import proofs.«143307_j61529701482741_2_alg».proof.Proof.Gen.Kernel
import proofs.«143307_j61529701482741_2_alg».proof.Proof.Gen.Kernel.Skeleton
import proofs.«143307_j61529701482741_2_alg».proof.Proof.Gen.Kernel.Launch
import proofs.«143307_j61529701482741_2_alg».proof.Proof.Gen.Kernel.Points
import proofs.«143307_j61529701482741_2_alg».proof.Proof.Gen.Kernel.Frame
import proofs.«143307_j61529701482741_2_alg».proof.Proof.Gen.KernelIdeal
import proofs.«143307_j61529701482741_2_alg».proof.Proof.Gen.KernelIdeal.Skeleton
import proofs.«143307_j61529701482741_2_alg».proof.Proof.Gen.KernelIdeal.Launch
import proofs.«143307_j61529701482741_2_alg».proof.Proof.Gen.KernelIdeal.Points
import proofs.«143307_j61529701482741_2_alg».proof.Proof.Gen.KernelIdeal.Frame
import proofs.«143307_j61529701482741_2_alg».proof.Proof.Gen.ReferenceIdeal
import proofs.«143307_j61529701482741_2_alg».proof.Proof.Gen.Pre_finite_inputs
import proofs.«143307_j61529701482741_2_alg».proof.Proof.RefImports
import proofs.«143307_j61529701482741_2_alg».proof.Proof.KernelValue
import proofs.«143307_j61529701482741_2_alg».proof.Proof.RefValue
import proofs.«143307_j61529701482741_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments, both programs end at G of the arguments: the kernel program for any
    contents, the reference because the precondition makes every entry real. -/
theorem algebraic : Cert.algebraic_KernelIdeal_ReferenceIdeal := by
  intro m ρ m' ρ' hpre hagree
  refine ⟨fun c => Cert.SignLinear.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.SignLinear.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW⟩ := Cert.SignLinear.Finite.isReal_of_pre _ _ (hpre c)
  rw [Cert.ReferenceIdeal.Read.val_main_v32_eq, (hagree c).1, (hagree c).2]
  exact Cert.SignLinear.Ref.ref_eq _ _ hX hW

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
